-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S4000x128 : Shape := ⟨2, ![4000, 128]⟩
abbrev S4000x1 : Shape := ⟨2, ![4000, 1]⟩

abbrev nBuf : Space → Nat
  | .hbm => 63
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x128, .bf16⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .bf16⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S1x128, .f32⟩
  | .hbm, ⟨41, _⟩ => ⟨S128x128, .f32⟩
  | .hbm, ⟨42, _⟩ => ⟨S128x128, .f32⟩
  | .hbm, ⟨43, _⟩ => ⟨S100000x128, .f32⟩
  | .hbm, ⟨44, _⟩ => ⟨S100000x128, .bf16⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .bf16⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S1x128, .f32⟩
  | .hbm, ⟨60, _⟩ => ⟨S128x128, .f32⟩
  | .hbm, ⟨61, _⟩ => ⟨S128x128, .f32⟩
  | .hbm, ⟨62, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x1, .f32⟩
  | .local _ .vmem, ⟨16, _⟩ => ⟨S4000x1, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S4000x128, .f32⟩
  | .local _ .vmem, ⟨21, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bitsLt_bf16_f32 : FTy.bits .bf16 < FTy.bits .f32
  bcast_S_S100000x128 : S_.BroadcastsInDim S100000x128 (![] : Fin 0 → Fin S100000x128.rank)
  shapeCasts_S128_S1x128 : S128.ShapeCasts S1x128
  transposes_S128x128_S128x128_1_0 : S128x128.Transposes [1, 0] S128x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v24) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v40) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S128x128, .f32⟩
  | .hbm, ⟨79, _⟩ => ⟨S100000x128, .f32⟩
  | .hbm, ⟨80, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KRun.lean ====
/-
  The kernel program's run with its result array named.  The program is four stretches: host operations, the first
  layer's combine over the 25 row blocks, host operations again, the second layer's combine.  Every weakly fair
  execution terminates without a fault; the result buffer ends at what the last stretch leaves in it (the contents
  `W4` at the result's reference: the second combine's output array after its 25 write-backs), and every argument
  ends as launched.  This is the frame statement with one more conjunct, read off the same final thread state.
-/
import proofs.«126381_j34411277976464_2_alg».proof.Proof.Gen.KernelIdeal.Frame

set_option maxRecDepth 16384

noncomputable section

namespace Cert.KernelIdeal.SageRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the
    last stretch's contents of it and the arguments as launched. -/
theorem run_named : θ_run defs (onTc (τ := τ) (main (F := F))) ⟨m, fun _ => 0, ρ⟩ (fun r => ∀ c : Dev nD,
      r.2.mem ((c.tc : Thread nD τ).loc main_v44) = W4 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v44 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.SageRun

end
-- ==== Proof.LibPlainDot.lean ====
/-
  A plain matrix product read at an index.  For dimension numbers that contract the left operand's second axis with
  the right operand's first and have no batch axes, the contraction  sum over k of l[(i, k)] * r[(k, j)]  ranges over
  the contraction shape's indices; that shape has one axis of extent K, so the sum is one over k < K.  The four
  coordinate facts (which coordinate of the output index or of the contraction index each operand index carries)
  are hypotheses: for a printed record each is decided by unfolding the record.
-/
import Idealize.ShloMosaic.Lib.ValueIdx
import Idealize.ShloMosaic.PureOps.Ideal.Laws

noncomputable section

namespace Cert.LibPlainDot

open Idealize.ShloMosaic Idealize.ShloMosaic.ValueIdx

/-- The contraction sum of a plain [M,K] x [K,N] product at output index i is the sum over k < K of
    l (i 0, k) * r (k, i 1). -/
theorem sum_plain {M K N : Nat} (d : DotDims (⟨2, ![M, K]⟩ : Shape) (⟨2, ![K, N]⟩ : Shape) (⟨2, ![M, N]⟩ : Shape))
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (p : Fin M) (c : Fin N) :
    ∑ k : d.contr.Idx, l (d.lhsIdx (ix2 p c) k) * r (d.rhsIdx (ix2 p c) k) = ∑ k : Fin K, l (ix2 p k) * r (ix2 k c) := by
  rw [← Equiv.sum_comp (contrEquiv1 d K hr hs).symm]
  refine Finset.sum_congr rfl fun k _ => ?_
  have hk := contrEquiv1_symm_val d K hr hs k
  have el : d.lhsIdx (ix2 p c) ((contrEquiv1 d K hr hs).symm k) = ix2 p k := funext fun a => Fin.ext (by
    match a with
    | ⟨0, _⟩ => exact hl0 _ _
    | ⟨1, _⟩ => exact (hl1 _ _).trans hk)
  have er : d.rhsIdx (ix2 p c) ((contrEquiv1 d K hr hs).symm k) = ix2 k c := funext fun a => Fin.ext (by
    match a with
    | ⟨0, _⟩ => exact (hr0 _ _).trans hk
    | ⟨1, _⟩ => exact hr1 _ _)
  rw [el, er]

end Cert.LibPlainDot

end
-- ==== Proof.Pay.lean ====
/-
  What one row block of a combine step computes, read at a row p and a column q of the block.

  The body scales the block of neighbour sums by the block's column of reciprocals, multiplies the scaled block and
  the block of node features by the two 128 x 128 weight matrices on the matrix unit (each product accumulated into
  zero), adds the two products, then the bias row; the first layer's body also clamps at zero.  Changes of float format
  are the identity on extended reals, a cast to the same shape is the identity, and each matrix product at (p, q) is
  the sum over k < 128 of the left factor at (p, k) times the right factor at (k, q).
-/
import proofs.«126381_j34411277976464_2_alg».proof.Proof.Gen.KernelIdeal.Skeleton
import proofs.«126381_j34411277976464_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.SagePay

open Cert.KernelIdeal Cert.KernelIdeal.Gen Idealize.ShloMosaic Idealize.ShloMosaic.ValueIdx

/-- A column [a, 1] broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : Nat) = 1 then 0 else c.val
    rw [if_pos rfl]

local notation "dotK" => dot_S4000x128_S128x128_S4000x128_1_0_0_1_n_n

/-- The left operand's row coordinate is the output's. -/
theorem dot_l0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- The left operand's column coordinate is the contraction's. -/
theorem dot_l1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The right operand's row coordinate is the contraction's. -/
theorem dot_r0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- The right operand's column coordinate is the output's. -/
theorem dot_r1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A matrix-unit product into zero, at (p, q): the sum over k of left (p, k) times right (k, q). -/
theorem matmul_zero_apply {φ₁ φ₂ : FTy} (l : FVec Ideal S4000x128 φ₁) (r : FVec Ideal S128x128 φ₂) (p : Fin 4000) (q : Fin 128) :
    matmul dot_S4000x128_S128x128_S4000x128_1_0_0_1_n_n none l r (constant S4000x128 .f32 0x00000000#32) (ix2 p q)
      = ∑ k : Fin 128, l (ix2 p k) * r (ix2 k q) := by
  simp only [matmul]
  rw [Ideal.matmul_constant_zero_apply]
  exact Cert.LibPlainDot.sum_plain dot_S4000x128_S128x128_S4000x128_1_0_0_1_n_n rfl rfl dot_l0 dot_l1 dot_r0 dot_r1 l r p q

/-- The first layer's block at (p, q). -/
theorem pay0_apply (v0 : Vec Ideal S4000x128 .f32) (v2 : Vec Ideal S4000x1 .f32) (v7 : Vec Ideal S4000x128 .f32)
    (v9 v12 : Vec Ideal S128x128 .f32) (v15 : Vec Ideal S1x128 .f32) (p : Fin 4000) (q : Fin 128) :
    k0_pay1 (F := Ideal) v0 v2 v7 v9 v12 v15 (ix2 p q)
      = max ((∑ k : Fin 128, (v0 (ix2 p k) * v2 (ix2 p (0 : Fin 1))) * v9 (ix2 k q))
          + (∑ k : Fin 128, v7 (ix2 p k) * v12 (ix2 k q)) + v15 (ix2 (0 : Fin 1) q)) (Ideal.ofBits .f32 0x00000000#32) := by
  unfold k0_pay1
  simp only [shapeCast_self]
  rw [maximumf_apply, addf_apply, addf_apply, matmul_zero_apply, matmul_zero_apply, broadcastTo_1b_ab_apply, broadcast_apply]
  simp only [truncf_apply, mulf_apply, broadcastTo_a1_ab_apply]
  rfl

/-- The second layer's block at (p, q): the same without the clamp. -/
theorem pay1_apply (v0 : Vec Ideal S4000x128 .f32) (v2 : Vec Ideal S4000x1 .f32) (v7 : Vec Ideal S4000x128 .f32)
    (v10 v13 : Vec Ideal S128x128 .f32) (v16 : Vec Ideal S1x128 .f32) (p : Fin 4000) (q : Fin 128) :
    k1_pay1 (F := Ideal) v0 v2 v7 v10 v13 v16 (ix2 p q)
      = (∑ k : Fin 128, (v0 (ix2 p k) * v2 (ix2 p (0 : Fin 1))) * v10 (ix2 k q))
          + (∑ k : Fin 128, v7 (ix2 p k) * v13 (ix2 k q)) + v16 (ix2 (0 : Fin 1) q) := by
  unfold k1_pay1
  simp only [shapeCast_self]
  rw [addf_apply, addf_apply, matmul_zero_apply, matmul_zero_apply, broadcastTo_1b_ab_apply]
  simp only [truncf_apply, mulf_apply, broadcastTo_a1_ab_apply]

end Cert.KernelIdeal.SagePay

end
-- ==== Proof.Spec.lean ====
/-
  One mean-aggregation layer, as a function of abstract tables over the extended reals.

  Row r of the result, column j, is

      sum over k of  mean r k * wl k j   +   b j   +   sum over k of  x r k * wr k j,

  where  mean r k  is the neighbour sum  agg r k  divided by the clamped in-degree  c r.  One arrangement multiplies
  the neighbour sum by the reciprocal  u / c r  (u the unit) and adds the bias last; the other divides by  c r  and adds
  the bias between the two products.  They agree on every extended real as soon as  c r  is at least the unit: then
  c r  is not zero, so both  a * (1 / c)  and  a / c  are  a * c⁻¹ ; and reordering three summands needs only that
  addition is commutative and associative.  No finiteness of the tables is used.
-/
import Idealize.ShloMosaic.PureOps.Ideal

noncomputable section

namespace Cert.Sage

open Idealize.ShloMosaic

/-- The layer with the neighbour sum scaled by a given reciprocal table `inv`, the bias added last. -/
def layerK {M : Nat} (agg x : Fin M → Fin 128 → EReal) (inv : Fin M → EReal) (wl wr : Fin 128 → Fin 128 → EReal)
    (b : Fin 128 → EReal) (r : Fin M) (j : Fin 128) : EReal :=
  (∑ k : Fin 128, (agg r k * inv r) * wl k j) + (∑ k : Fin 128, x r k * wr k j) + b j

/-- The layer with the neighbour sum divided by the clamped in-degree `c`, the bias added between the products. -/
def layerR {M : Nat} (agg x : Fin M → Fin 128 → EReal) (c : Fin M → EReal) (wl wr : Fin 128 → Fin 128 → EReal)
    (b : Fin 128 → EReal) (r : Fin M) (j : Fin 128) : EReal :=
  (∑ k : Fin 128, Ideal.div (agg r k) (c r) * wl k j) + b j + ∑ k : Fin 128, x r k * wr k j

/-- The unit's word (the float pattern of 1.0) denotes one. -/
theorem ofBits_one : Ideal.ofBits .f32 0x3F800000#32 = 1 := by
  simp [Ideal.ofBits, Ideal.ieee, -EReal.coe_mul]; norm_num

/-- Multiplying by the reciprocal of a number that is at least one is dividing by it: the divisor is not zero, so both
    sides are the product with its inverse. -/
theorem mul_recip_eq_div {u c : EReal} (hu : u = 1) (hc : u ≤ c) (a : EReal) : a * Ideal.div u c = Ideal.div a c := by
  subst hu
  have hc0 : c ≠ 0 := ne_of_gt (lt_of_lt_of_le zero_lt_one hc)
  unfold Ideal.div
  rw [if_neg hc0, if_neg hc0, one_mul]

/-- The two arrangements of the layer are one function when every clamped in-degree is at least the unit. -/
theorem layer_eq {M : Nat} (agg x : Fin M → Fin 128 → EReal) (c : Fin M → EReal) (wl wr : Fin 128 → Fin 128 → EReal)
    (b : Fin 128 → EReal) {u : EReal} (hu : u = 1) (hc : ∀ r, u ≤ c r) (r : Fin M) (j : Fin 128) :
    layerK agg x (fun r => Ideal.div u (c r)) wl wr b r j = layerR agg x c wl wr b r j := by
  unfold layerK layerR
  simp only [mul_recip_eq_div hu (hc r)]
  exact add_right_comm _ _ _

end Cert.Sage

end
-- ==== Proof.Region.lean ====
/-
  From row blocks to arrays.  Each combine step runs over 25 grid points; point t stages rows 4000 t … 4000 t + 3999 of
  the neighbour sums, of the node features and of the reciprocal column, the whole of the two weight matrices and of the
  bias row, and writes back rows 4000 t … 4000 t + 3999 of the output.  Row r of the output depends only on row r of the
  row-blocked inputs, so every block written back is the restriction of ONE function of the whole arrays; the 25 blocks
  tile the 100000 rows (row r is in block r / 4000), hence after the step the output array is that function.
  Stated for any contents `V` of the buffers at the step's entry, so that each step can be read at its own entry.
-/
import proofs.«126381_j34411277976464_2_alg».proof.Proof.Gen.KernelIdeal.Frame
import proofs.«126381_j34411277976464_2_alg».proof.Proof.Pay
import proofs.«126381_j34411277976464_2_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.SageRegion

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The first layer's combine step -/

/-- Where each window's block sits at grid point t: the three row-blocked inputs and the output at block row t, the two
    weight matrices and the bias row at the origin.  Decided over the 25 points. -/
theorem idx0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = t.val
    ∧ win0_6.index t (1 : Fin 2) = 0 :=
  (by decide +kernel : ∀ t : Fin grid0.N, _)

/-- Input window 0's block at point t, read at x, is the array as the step finds it at row 4000 t + x₀. -/
theorem iblk0_0_apply (c : Dev nD) (t : Fin cfg0.N) (x : S4000x128.Idx) (k : S100000x128.Idx)
    (hk0 : (k 0).val = 4000 * t.val + (x 0).val) (hk1 : (k 1).val = (x 1).val) :
    (iblk0 V c 0 t : Vec Ideal S4000x128 .f32) x = (V c main_v24 : S100000x128.Idx → EReal) k := by
  obtain ⟨e00, e01, e10, e11, e20, e21, e30, e31, e40, e41, e50, e51, e60, e61⟩ := idx0 t
  unfold iblk0
  rw [View.read_apply]
  show V c main_v24 _ = V c main_v24 _
  congr 1
  funext a
  apply Fin.ext
  match a with
  | ⟨0, _⟩ => show win0_0.index t (0 : Fin 2) * 4000 + 1 * (x 0).val = (k 0).val; rw [e00, hk0]; omega
  | ⟨1, _⟩ => show win0_0.index t (1 : Fin 2) * 128 + 1 * (x 1).val = (k 1).val; rw [e01, hk1]; omega

/-- Input window 1's block at point t, read at x, is the array as the step finds it at row 4000 t + x₀. -/
theorem iblk0_1_apply (c : Dev nD) (t : Fin cfg0.N) (x : S4000x128.Idx) (k : S100000x128.Idx)
    (hk0 : (k 0).val = 4000 * t.val + (x 0).val) (hk1 : (k 1).val = (x 1).val) :
    (iblk0 V c 1 t : Vec Ideal S4000x128 .f32) x = (V c main_arg0 : S100000x128.Idx → EReal) k := by
  obtain ⟨e00, e01, e10, e11, e20, e21, e30, e31, e40, e41, e50, e51, e60, e61⟩ := idx0 t
  unfold iblk0
  rw [View.read_apply]
  show V c main_arg0 _ = V c main_arg0 _
  congr 1
  funext a
  apply Fin.ext
  match a with
  | ⟨0, _⟩ => show win0_1.index t (0 : Fin 2) * 4000 + 1 * (x 0).val = (k 0).val; rw [e10, hk0]; omega
  | ⟨1, _⟩ => show win0_1.index t (1 : Fin 2) * 128 + 1 * (x 1).val = (k 1).val; rw [e11, hk1]; omega

/-- Input window 2's block at point t, read at x, is the array as the step finds it at row 4000 t + x₀. -/
theorem iblk0_2_apply (c : Dev nD) (t : Fin cfg0.N) (x : S4000x1.Idx) (k : S100000x1.Idx)
    (hk0 : (k 0).val = 4000 * t.val + (x 0).val) (hk1 : (k 1).val = (x 1).val) :
    (iblk0 V c 2 t : Vec Ideal S4000x1 .f32) x = (V c main_v12 : S100000x1.Idx → EReal) k := by
  obtain ⟨e00, e01, e10, e11, e20, e21, e30, e31, e40, e41, e50, e51, e60, e61⟩ := idx0 t
  unfold iblk0
  rw [View.read_apply]
  show V c main_v12 _ = V c main_v12 _
  congr 1
  funext a
  apply Fin.ext
  match a with
  | ⟨0, _⟩ => show win0_2.index t (0 : Fin 2) * 4000 + 1 * (x 0).val = (k 0).val; rw [e20, hk0]; omega
  | ⟨1, _⟩ => show win0_2.index t (1 : Fin 2) * 1 + 1 * (x 1).val = (k 1).val; rw [e21, hk1]; omega

/-- Input window 3's block at point t, read at x, is the array as the step finds it at x. -/
theorem iblk0_3_apply (c : Dev nD) (t : Fin cfg0.N) (x : S128x128.Idx) (k : S128x128.Idx)
    (hk0 : (k 0).val = (x 0).val) (hk1 : (k 1).val = (x 1).val) :
    (iblk0 V c 3 t : Vec Ideal S128x128 .f32) x = (V c main_v26 : S128x128.Idx → EReal) k := by
  obtain ⟨e00, e01, e10, e11, e20, e21, e30, e31, e40, e41, e50, e51, e60, e61⟩ := idx0 t
  unfold iblk0
  rw [View.read_apply]
  show V c main_v26 _ = V c main_v26 _
  congr 1
  funext a
  apply Fin.ext
  match a with
  | ⟨0, _⟩ => show win0_3.index t (0 : Fin 2) * 128 + 1 * (x 0).val = (k 0).val; rw [e30, hk0]; omega
  | ⟨1, _⟩ => show win0_3.index t (1 : Fin 2) * 128 + 1 * (x 1).val = (k 1).val; rw [e31, hk1]; omega

/-- Input window 4's block at point t, read at x, is the array as the step finds it at x. -/
theorem iblk0_4_apply (c : Dev nD) (t : Fin cfg0.N) (x : S1x128.Idx) (k : S1x128.Idx)
    (hk0 : (k 0).val = (x 0).val) (hk1 : (k 1).val = (x 1).val) :
    (iblk0 V c 4 t : Vec Ideal S1x128 .f32) x = (V c main_v25 : S1x128.Idx → EReal) k := by
  obtain ⟨e00, e01, e10, e11, e20, e21, e30, e31, e40, e41, e50, e51, e60, e61⟩ := idx0 t
  unfold iblk0
  rw [View.read_apply]
  show V c main_v25 _ = V c main_v25 _
  congr 1
  funext a
  apply Fin.ext
  match a with
  | ⟨0, _⟩ => show win0_4.index t (0 : Fin 2) * 1 + 1 * (x 0).val = (k 0).val; rw [e40, hk0]; omega
  | ⟨1, _⟩ => show win0_4.index t (1 : Fin 2) * 128 + 1 * (x 1).val = (k 1).val; rw [e41, hk1]; omega

/-- Input window 5's block at point t, read at x, is the array as the step finds it at x. -/
theorem iblk0_5_apply (c : Dev nD) (t : Fin cfg0.N) (x : S128x128.Idx) (k : S128x128.Idx)
    (hk0 : (k 0).val = (x 0).val) (hk1 : (k 1).val = (x 1).val) :
    (iblk0 V c 5 t : Vec Ideal S128x128 .f32) x = (V c main_v27 : S128x128.Idx → EReal) k := by
  obtain ⟨e00, e01, e10, e11, e20, e21, e30, e31, e40, e41, e50, e51, e60, e61⟩ := idx0 t
  unfold iblk0
  rw [View.read_apply]
  show V c main_v27 _ = V c main_v27 _
  congr 1
  funext a
  apply Fin.ext
  match a with
  | ⟨0, _⟩ => show win0_5.index t (0 : Fin 2) * 128 + 1 * (x 0).val = (k 0).val; rw [e50, hk0]; omega
  | ⟨1, _⟩ => show win0_5.index t (1 : Fin 2) * 128 + 1 * (x 1).val = (k 1).val; rw [e51, hk1]; omega

/-- The step's output array as one function of the six arrays it reads: at row r, column j, the layer with the
    neighbour sums scaled by the reciprocal column, clamped at zero. -/
def out0 (A X : S100000x128.Idx → EReal) (I : S100000x1.Idx → EReal) (WL WR : S128x128.Idx → EReal) (B : S1x128.Idx → EReal) :
    S100000x128.Idx → EReal := fun i =>
  max (Cert.Sage.layerK (fun r k => A (ix2 r k)) (fun r k => X (ix2 r k)) (fun r => I (ix2 r (0 : Fin 1)))
    (fun k j => WL (ix2 k j)) (fun k j => WR (ix2 k j)) (fun j => B (ix2 (0 : Fin 1) j)) (i 0) (i 1)) (Ideal.ofBits .f32 0x00000000#32)

/-- One block: the body's result at j, from blocks that are rows 4000 t … 4000 t + 3999 of the row-blocked arrays and
    the whole of the others, is the whole-array function at row 4000 t + j₀, column j₁. -/
theorem block0 (x0 x1 : Vec Ideal S4000x128 .f32) (x2 : Vec Ideal S4000x1 .f32) (x3 x5 : Vec Ideal S128x128 .f32) (x4 : Vec Ideal S1x128 .f32)
    (A X : S100000x128.Idx → EReal) (I : S100000x1.Idx → EReal) (WL WR : S128x128.Idx → EReal) (B : S1x128.Idx → EReal) (tv : Nat)
    (h0 : ∀ (x : S4000x128.Idx) (k : S100000x128.Idx), (k 0).val = 4000 * tv + (x 0).val → (k 1).val = (x 1).val → x0 x = A k)
    (h1 : ∀ (x : S4000x128.Idx) (k : S100000x128.Idx), (k 0).val = 4000 * tv + (x 0).val → (k 1).val = (x 1).val → x1 x = X k)
    (h2 : ∀ (x : S4000x1.Idx) (k : S100000x1.Idx), (k 0).val = 4000 * tv + (x 0).val → (k 1).val = (x 1).val → x2 x = I k)
    (h3 : ∀ (x : S128x128.Idx) (k : S128x128.Idx), (k 0).val = (x 0).val → (k 1).val = (x 1).val → x3 x = WL k)
    (h4 : ∀ (x : S1x128.Idx) (k : S1x128.Idx), (k 0).val = (x 0).val → (k 1).val = (x 1).val → x4 x = B k)
    (h5 : ∀ (x : S128x128.Idx) (k : S128x128.Idx), (k 0).val = (x 0).val → (k 1).val = (x 1).val → x5 x = WR k)
    (j : S4000x128.Idx) (i : S100000x128.Idx) (hi0 : (i 0).val = 4000 * tv + (j 0).val) (hi1 : (i 1).val = (j 1).val) :
    k0_pay1 (F := Ideal) x0 x2 x1 x3 x5 x4 j = out0 A X I WL WR B i := by
  obtain ⟨p, q, rfl⟩ : ∃ (p : Fin 4000) (q : Fin 128), j = ix2 p q := ⟨j 0, j 1, eq_ix2 j⟩
  obtain ⟨r, s, rfl⟩ : ∃ (r : Fin 100000) (s : Fin 128), i = ix2 r s := ⟨i 0, i 1, eq_ix2 i⟩
  have hr : r.val = 4000 * tv + p.val := hi0
  obtain rfl : s = q := Fin.ext hi1
  rw [SagePay.pay0_apply]
  unfold out0 Cert.Sage.layerK
  show _ = max ((∑ k : Fin 128, (A (ix2 r k) * I (ix2 r (0 : Fin 1))) * WL (ix2 k s)) + (∑ k : Fin 128, X (ix2 r k) * WR (ix2 k s)) + B (ix2 (0 : Fin 1) s)) (Ideal.ofBits .f32 0x00000000#32)
  rw [h4 (ix2 (0 : Fin 1) s) (ix2 (0 : Fin 1) s) rfl rfl, h2 (ix2 p (0 : Fin 1)) (ix2 r (0 : Fin 1)) hr rfl]
  refine congrArg (fun z => max z (Ideal.ofBits .f32 0x00000000#32)) ?_
  refine congrArg₂ (· + ·) (congrArg₂ (· + ·) (Finset.sum_congr rfl fun k _ => ?_) (Finset.sum_congr rfl fun k _ => ?_)) rfl
  · rw [h0 (ix2 p k) (ix2 r k) hr rfl, h3 (ix2 k s) (ix2 k s) rfl rfl]
  · rw [h1 (ix2 p k) (ix2 r k) hr rfl, h5 (ix2 k s) (ix2 k s) rfl rfl]

/-- What point t writes back is block t of the whole-array function of the arrays the step finds. -/
theorem flushed0_eq (c : Dev nD) (t : Fin cfg0.N) :
    (dat0 (F := Ideal) V c).flushed 6 t = ((cfg0.win 6).blk t).view.read (Elt Ideal)
      (out0 (V c main_v24) (V c main_arg0) (V c main_v12) (V c main_v26) (V c main_v27) (V c main_v25)) := by
  obtain ⟨e00, e01, e10, e11, e20, e21, e30, e31, e40, e41, e50, e51, e60, e61⟩ := idx0 t
  show (cfg0.win 6).cut (grid0.coords t) ((dat0 (F := Ideal) V c).after 6 t) = _
  rw [after0_6]
  unfold out0_6
  rw [View.canon_unit_zero hz]
  simp only [View.ld_unit_zero (S := S4000x128) hz, View.ld_unit_zero (S := S4000x1) hz, View.ld_unit_zero (S := S128x128) hz, View.ld_unit_zero (S := S1x128) hz]
  funext j
  rw [View.read_apply]
  exact block0 (iblk0 V c 0 t) (iblk0 V c 1 t) (iblk0 V c 2 t) (iblk0 V c 3 t) (iblk0 V c 5 t) (iblk0 V c 4 t)
    (V c main_v24) (V c main_arg0) (V c main_v12) (V c main_v26) (V c main_v27) (V c main_v25) t.val
    (fun x k => iblk0_0_apply V c t x k) (fun x k => iblk0_1_apply V c t x k) (fun x k => iblk0_2_apply V c t x k)
    (fun x k => iblk0_3_apply V c t x k) (fun x k => iblk0_4_apply V c t x k) (fun x k => iblk0_5_apply V c t x k)
    j (((cfg0.win 6).blk t).view.emb j)
    (by show win0_6.index t (0 : Fin 2) * 4000 + 1 * (j 0).val = 4000 * t.val + (j 0).val; rw [e60]; omega)
    (by show win0_6.index t (1 : Fin 2) * 128 + 1 * (j 1).val = (j 1).val; rw [e61]; omega)

/-- An index of the output array is in point t's block iff each coordinate is in the block's range. -/
theorem mem_blk0 (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v28).slice (win0_6.rect t)).set ↔ _
  rw [View.set_slice_whole, Rect.mem_set_unit]
  exact Iff.rfl

/-- Every row lies in the block of the point numbered row / 4000, and every point writes back. -/
theorem cover0 (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 25 := N_0
  refine ⟨⟨(i 0).val / 4000, by rw [hN]; omega⟩, flush0_6 _, ?_⟩
  rw [mem_blk0]
  obtain ⟨e00, e01, e10, e11, e20, e21, e30, e31, e40, e41, e50, e51, e60, e61⟩ := idx0 ⟨(i 0).val / 4000, by rw [hN]; omega⟩
  intro a
  match a with
  | ⟨0, _⟩ =>
    show win0_6.index _ (0 : Fin 2) * 4000 ≤ (i 0).val ∧ (i 0).val < win0_6.index _ (0 : Fin 2) * 4000 + 4000
    rw [e60]; show (i 0).val / 4000 * 4000 ≤ (i 0).val ∧ (i 0).val < (i 0).val / 4000 * 4000 + 4000; omega
  | ⟨1, _⟩ =>
    show win0_6.index _ (1 : Fin 2) * 128 ≤ (i 1).val ∧ (i 1).val < win0_6.index _ (1 : Fin 2) * 128 + 128
    rw [e61]; omega

/-- The output array after the step's 25 write-backs is the whole-array function of the arrays the step finds. -/
theorem final0 (c : Dev nD) : (dat0 (F := Ideal) V c).arrAt 6 cfg0.N
    = out0 (V c main_v24) (V c main_arg0) (V c main_v12) (V c main_v26) (V c main_v27) (V c main_v25) :=
  (dat0 (F := Ideal) V c).arrAt_eq_of_cover 6 _ (fun t _ => flushed0_eq V c t) (cover0)

/-! ## The second layer's combine step -/

/-- Where each window's block sits at grid point t: the three row-blocked inputs and the output at block row t, the two
    weight matrices and the bias row at the origin.  Decided over the 25 points. -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = t.val
    ∧ win1_6.index t (1 : Fin 2) = 0 :=
  (by decide +kernel : ∀ t : Fin grid1.N, _)

/-- Input window 0's block at point t, read at x, is the array as the step finds it at row 4000 t + x₀. -/
theorem iblk1_0_apply (c : Dev nD) (t : Fin cfg1.N) (x : S4000x128.Idx) (k : S100000x128.Idx)
    (hk0 : (k 0).val = 4000 * t.val + (x 0).val) (hk1 : (k 1).val = (x 1).val) :
    (iblk1 V c 0 t : Vec Ideal S4000x128 .f32) x = (V c main_v40 : S100000x128.Idx → EReal) k := by
  obtain ⟨e00, e01, e10, e11, e20, e21, e30, e31, e40, e41, e50, e51, e60, e61⟩ := idx1 t
  unfold iblk1
  rw [View.read_apply]
  show V c main_v40 _ = V c main_v40 _
  congr 1
  funext a
  apply Fin.ext
  match a with
  | ⟨0, _⟩ => show win1_0.index t (0 : Fin 2) * 4000 + 1 * (x 0).val = (k 0).val; rw [e00, hk0]; omega
  | ⟨1, _⟩ => show win1_0.index t (1 : Fin 2) * 128 + 1 * (x 1).val = (k 1).val; rw [e01, hk1]; omega

/-- Input window 1's block at point t, read at x, is the array as the step finds it at row 4000 t + x₀. -/
theorem iblk1_1_apply (c : Dev nD) (t : Fin cfg1.N) (x : S4000x128.Idx) (k : S100000x128.Idx)
    (hk0 : (k 0).val = 4000 * t.val + (x 0).val) (hk1 : (k 1).val = (x 1).val) :
    (iblk1 V c 1 t : Vec Ideal S4000x128 .f32) x = (V c main_v28 : S100000x128.Idx → EReal) k := by
  obtain ⟨e00, e01, e10, e11, e20, e21, e30, e31, e40, e41, e50, e51, e60, e61⟩ := idx1 t
  unfold iblk1
  rw [View.read_apply]
  show V c main_v28 _ = V c main_v28 _
  congr 1
  funext a
  apply Fin.ext
  match a with
  | ⟨0, _⟩ => show win1_1.index t (0 : Fin 2) * 4000 + 1 * (x 0).val = (k 0).val; rw [e10, hk0]; omega
  | ⟨1, _⟩ => show win1_1.index t (1 : Fin 2) * 128 + 1 * (x 1).val = (k 1).val; rw [e11, hk1]; omega

/-- Input window 2's block at point t, read at x, is the array as the step finds it at row 4000 t + x₀. -/
theorem iblk1_2_apply (c : Dev nD) (t : Fin cfg1.N) (x : S4000x1.Idx) (k : S100000x1.Idx)
    (hk0 : (k 0).val = 4000 * t.val + (x 0).val) (hk1 : (k 1).val = (x 1).val) :
    (iblk1 V c 2 t : Vec Ideal S4000x1 .f32) x = (V c main_v12 : S100000x1.Idx → EReal) k := by
  obtain ⟨e00, e01, e10, e11, e20, e21, e30, e31, e40, e41, e50, e51, e60, e61⟩ := idx1 t
  unfold iblk1
  rw [View.read_apply]
  show V c main_v12 _ = V c main_v12 _
  congr 1
  funext a
  apply Fin.ext
  match a with
  | ⟨0, _⟩ => show win1_2.index t (0 : Fin 2) * 4000 + 1 * (x 0).val = (k 0).val; rw [e20, hk0]; omega
  | ⟨1, _⟩ => show win1_2.index t (1 : Fin 2) * 1 + 1 * (x 1).val = (k 1).val; rw [e21, hk1]; omega

/-- Input window 3's block at point t, read at x, is the array as the step finds it at x. -/
theorem iblk1_3_apply (c : Dev nD) (t : Fin cfg1.N) (x : S128x128.Idx) (k : S128x128.Idx)
    (hk0 : (k 0).val = (x 0).val) (hk1 : (k 1).val = (x 1).val) :
    (iblk1 V c 3 t : Vec Ideal S128x128 .f32) x = (V c main_v42 : S128x128.Idx → EReal) k := by
  obtain ⟨e00, e01, e10, e11, e20, e21, e30, e31, e40, e41, e50, e51, e60, e61⟩ := idx1 t
  unfold iblk1
  rw [View.read_apply]
  show V c main_v42 _ = V c main_v42 _
  congr 1
  funext a
  apply Fin.ext
  match a with
  | ⟨0, _⟩ => show win1_3.index t (0 : Fin 2) * 128 + 1 * (x 0).val = (k 0).val; rw [e30, hk0]; omega
  | ⟨1, _⟩ => show win1_3.index t (1 : Fin 2) * 128 + 1 * (x 1).val = (k 1).val; rw [e31, hk1]; omega

/-- Input window 4's block at point t, read at x, is the array as the step finds it at x. -/
theorem iblk1_4_apply (c : Dev nD) (t : Fin cfg1.N) (x : S1x128.Idx) (k : S1x128.Idx)
    (hk0 : (k 0).val = (x 0).val) (hk1 : (k 1).val = (x 1).val) :
    (iblk1 V c 4 t : Vec Ideal S1x128 .f32) x = (V c main_v41 : S1x128.Idx → EReal) k := by
  obtain ⟨e00, e01, e10, e11, e20, e21, e30, e31, e40, e41, e50, e51, e60, e61⟩ := idx1 t
  unfold iblk1
  rw [View.read_apply]
  show V c main_v41 _ = V c main_v41 _
  congr 1
  funext a
  apply Fin.ext
  match a with
  | ⟨0, _⟩ => show win1_4.index t (0 : Fin 2) * 1 + 1 * (x 0).val = (k 0).val; rw [e40, hk0]; omega
  | ⟨1, _⟩ => show win1_4.index t (1 : Fin 2) * 128 + 1 * (x 1).val = (k 1).val; rw [e41, hk1]; omega

/-- Input window 5's block at point t, read at x, is the array as the step finds it at x. -/
theorem iblk1_5_apply (c : Dev nD) (t : Fin cfg1.N) (x : S128x128.Idx) (k : S128x128.Idx)
    (hk0 : (k 0).val = (x 0).val) (hk1 : (k 1).val = (x 1).val) :
    (iblk1 V c 5 t : Vec Ideal S128x128 .f32) x = (V c main_v43 : S128x128.Idx → EReal) k := by
  obtain ⟨e00, e01, e10, e11, e20, e21, e30, e31, e40, e41, e50, e51, e60, e61⟩ := idx1 t
  unfold iblk1
  rw [View.read_apply]
  show V c main_v43 _ = V c main_v43 _
  congr 1
  funext a
  apply Fin.ext
  match a with
  | ⟨0, _⟩ => show win1_5.index t (0 : Fin 2) * 128 + 1 * (x 0).val = (k 0).val; rw [e50, hk0]; omega
  | ⟨1, _⟩ => show win1_5.index t (1 : Fin 2) * 128 + 1 * (x 1).val = (k 1).val; rw [e51, hk1]; omega

/-- The step's output array as one function of the six arrays it reads: at row r, column j, the layer with the
    neighbour sums scaled by the reciprocal column. -/
def out1 (A X : S100000x128.Idx → EReal) (I : S100000x1.Idx → EReal) (WL WR : S128x128.Idx → EReal) (B : S1x128.Idx → EReal) :
    S100000x128.Idx → EReal := fun i =>
  Cert.Sage.layerK (fun r k => A (ix2 r k)) (fun r k => X (ix2 r k)) (fun r => I (ix2 r (0 : Fin 1)))
    (fun k j => WL (ix2 k j)) (fun k j => WR (ix2 k j)) (fun j => B (ix2 (0 : Fin 1) j)) (i 0) (i 1)

/-- One block: the body's result at j, from blocks that are rows 4000 t … 4000 t + 3999 of the row-blocked arrays and
    the whole of the others, is the whole-array function at row 4000 t + j₀, column j₁. -/
theorem block1 (x0 x1 : Vec Ideal S4000x128 .f32) (x2 : Vec Ideal S4000x1 .f32) (x3 x5 : Vec Ideal S128x128 .f32) (x4 : Vec Ideal S1x128 .f32)
    (A X : S100000x128.Idx → EReal) (I : S100000x1.Idx → EReal) (WL WR : S128x128.Idx → EReal) (B : S1x128.Idx → EReal) (tv : Nat)
    (h0 : ∀ (x : S4000x128.Idx) (k : S100000x128.Idx), (k 0).val = 4000 * tv + (x 0).val → (k 1).val = (x 1).val → x0 x = A k)
    (h1 : ∀ (x : S4000x128.Idx) (k : S100000x128.Idx), (k 0).val = 4000 * tv + (x 0).val → (k 1).val = (x 1).val → x1 x = X k)
    (h2 : ∀ (x : S4000x1.Idx) (k : S100000x1.Idx), (k 0).val = 4000 * tv + (x 0).val → (k 1).val = (x 1).val → x2 x = I k)
    (h3 : ∀ (x : S128x128.Idx) (k : S128x128.Idx), (k 0).val = (x 0).val → (k 1).val = (x 1).val → x3 x = WL k)
    (h4 : ∀ (x : S1x128.Idx) (k : S1x128.Idx), (k 0).val = (x 0).val → (k 1).val = (x 1).val → x4 x = B k)
    (h5 : ∀ (x : S128x128.Idx) (k : S128x128.Idx), (k 0).val = (x 0).val → (k 1).val = (x 1).val → x5 x = WR k)
    (j : S4000x128.Idx) (i : S100000x128.Idx) (hi0 : (i 0).val = 4000 * tv + (j 0).val) (hi1 : (i 1).val = (j 1).val) :
    k1_pay1 (F := Ideal) x0 x2 x1 x3 x5 x4 j = out1 A X I WL WR B i := by
  obtain ⟨p, q, rfl⟩ : ∃ (p : Fin 4000) (q : Fin 128), j = ix2 p q := ⟨j 0, j 1, eq_ix2 j⟩
  obtain ⟨r, s, rfl⟩ : ∃ (r : Fin 100000) (s : Fin 128), i = ix2 r s := ⟨i 0, i 1, eq_ix2 i⟩
  have hr : r.val = 4000 * tv + p.val := hi0
  obtain rfl : s = q := Fin.ext hi1
  rw [SagePay.pay1_apply]
  unfold out1 Cert.Sage.layerK
  show _ = (∑ k : Fin 128, (A (ix2 r k) * I (ix2 r (0 : Fin 1))) * WL (ix2 k s)) + (∑ k : Fin 128, X (ix2 r k) * WR (ix2 k s)) + B (ix2 (0 : Fin 1) s)
  rw [h4 (ix2 (0 : Fin 1) s) (ix2 (0 : Fin 1) s) rfl rfl, h2 (ix2 p (0 : Fin 1)) (ix2 r (0 : Fin 1)) hr rfl]

  refine congrArg₂ (· + ·) (congrArg₂ (· + ·) (Finset.sum_congr rfl fun k _ => ?_) (Finset.sum_congr rfl fun k _ => ?_)) rfl
  · rw [h0 (ix2 p k) (ix2 r k) hr rfl, h3 (ix2 k s) (ix2 k s) rfl rfl]
  · rw [h1 (ix2 p k) (ix2 r k) hr rfl, h5 (ix2 k s) (ix2 k s) rfl rfl]

/-- What point t writes back is block t of the whole-array function of the arrays the step finds. -/
theorem flushed1_eq (c : Dev nD) (t : Fin cfg1.N) :
    (dat1 (F := Ideal) V c).flushed 6 t = ((cfg1.win 6).blk t).view.read (Elt Ideal)
      (out1 (V c main_v40) (V c main_v28) (V c main_v12) (V c main_v42) (V c main_v43) (V c main_v41)) := by
  obtain ⟨e00, e01, e10, e11, e20, e21, e30, e31, e40, e41, e50, e51, e60, e61⟩ := idx1 t
  show (cfg1.win 6).cut (grid1.coords t) ((dat1 (F := Ideal) V c).after 6 t) = _
  rw [after1_6]
  unfold out1_6
  rw [View.canon_unit_zero hz]
  simp only [View.ld_unit_zero (S := S4000x128) hz, View.ld_unit_zero (S := S4000x1) hz, View.ld_unit_zero (S := S128x128) hz, View.ld_unit_zero (S := S1x128) hz]
  funext j
  rw [View.read_apply]
  exact block1 (iblk1 V c 0 t) (iblk1 V c 1 t) (iblk1 V c 2 t) (iblk1 V c 3 t) (iblk1 V c 5 t) (iblk1 V c 4 t)
    (V c main_v40) (V c main_v28) (V c main_v12) (V c main_v42) (V c main_v43) (V c main_v41) t.val
    (fun x k => iblk1_0_apply V c t x k) (fun x k => iblk1_1_apply V c t x k) (fun x k => iblk1_2_apply V c t x k)
    (fun x k => iblk1_3_apply V c t x k) (fun x k => iblk1_4_apply V c t x k) (fun x k => iblk1_5_apply V c t x k)
    j (((cfg1.win 6).blk t).view.emb j)
    (by show win1_6.index t (0 : Fin 2) * 4000 + 1 * (j 0).val = 4000 * t.val + (j 0).val; rw [e60]; omega)
    (by show win1_6.index t (1 : Fin 2) * 128 + 1 * (j 1).val = (j 1).val; rw [e61]; omega)

/-- An index of the output array is in point t's block iff each coordinate is in the block's range. -/
theorem mem_blk1 (t : Fin cfg1.N) (i : S100000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v44).slice (win1_6.rect t)).set ↔ _
  rw [View.set_slice_whole, Rect.mem_set_unit]
  exact Iff.rfl

/-- Every row lies in the block of the point numbered row / 4000, and every point writes back. -/
theorem cover1 (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 25 := N_1
  refine ⟨⟨(i 0).val / 4000, by rw [hN]; omega⟩, flush1_6 _, ?_⟩
  rw [mem_blk1]
  obtain ⟨e00, e01, e10, e11, e20, e21, e30, e31, e40, e41, e50, e51, e60, e61⟩ := idx1 ⟨(i 0).val / 4000, by rw [hN]; omega⟩
  intro a
  match a with
  | ⟨0, _⟩ =>
    show win1_6.index _ (0 : Fin 2) * 4000 ≤ (i 0).val ∧ (i 0).val < win1_6.index _ (0 : Fin 2) * 4000 + 4000
    rw [e60]; show (i 0).val / 4000 * 4000 ≤ (i 0).val ∧ (i 0).val < (i 0).val / 4000 * 4000 + 4000; omega
  | ⟨1, _⟩ =>
    show win1_6.index _ (1 : Fin 2) * 128 ≤ (i 1).val ∧ (i 1).val < win1_6.index _ (1 : Fin 2) * 128 + 128
    rw [e61]; omega

/-- The output array after the step's 25 write-backs is the whole-array function of the arrays the step finds. -/
theorem final1 (c : Dev nD) : (dat1 (F := Ideal) V c).arrAt 6 cfg1.N
    = out1 (V c main_v40) (V c main_v28) (V c main_v12) (V c main_v42) (V c main_v43) (V c main_v41) :=
  (dat1 (F := Ideal) V c).arrAt_eq_of_cover 6 _ (fun t _ => flushed1_eq V c t) (cover1)

end Cert.KernelIdeal.SageRegion

end
-- ==== Proof.RefLayer.lean ====
/-
  The reference's two layers, read at an index.

  A layer of the reference takes the neighbour sums `agg`, the in-degrees clamped below at one `c`, the node features
  `x`, two weight matrices and a bias, and returns   (agg / c) · w1ᵀ + b + x · w2ᵀ   (the division row by row, the bias
  along rows).  Read at row r, column j this is

      sum over k of (agg (r, k) / c r) * w1 (j, k)   +   b j   +   sum over k of x (r, k) * w2 (j, k),

  each matrix product a plain contraction sum and each transpose read by swapping the coordinates.  The first layer's
  result is clamped at zero; the second layer is applied to that, with neighbour sums taken of it along the same edges.
  The neighbour sums (a gather followed by a scatter-add) and the degree count (a scatter-add of ones) are kept as the
  host operations they are: nothing here looks inside them.
-/
import proofs.«126381_j34411277976464_2_alg».proof.Proof.Gen.ReferenceIdeal.Read
import proofs.«126381_j34411277976464_2_alg».proof.Proof.LibPlainDot
import proofs.«126381_j34411277976464_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.SageRef

open Cert.ReferenceIdeal Cert.ReferenceIdeal.Gen Cert.ReferenceIdeal.Read Idealize.ShloMosaic Idealize.ShloMosaic.ValueIdx

/-- The neighbour sums of a feature array along the edge list: gather the source rows, scatter-add them at the targets. -/
def aggOf (h : FVec Ideal S100000x128 .f32) (e : IVec S2x1600000 32) :
    FVec Ideal S100000x128 .f32 :=
  Host.scatterAdd scatter_S100000x128_S1600000x1_S1600000x128_1_0_0_1 (val_main_v11 (F := Ideal)) (val_main_v12 (F := Ideal) e)
    (Host.gather gather_S100000x128_S1600000x1_S1600000x128_1_0_n_n_0_1_1128 h (val_main_v9 (F := Ideal) e))

/-- The in-degrees, clamped below at one. -/
def degOf (e : IVec S2x1600000 32) : FVec Ideal S100000 .f32 :=
  val_main_v19 (F := Ideal) e

/-- One layer as the reference's host operations. -/
def refLayer (agg : FVec Ideal S100000x128 .f32) (c : FVec Ideal S100000 .f32)
    (x : FVec Ideal S100000x128 .f32) (w1 : FVec Ideal S128x128 .f32)
    (b : FVec Ideal S128 .f32) (w2 : FVec Ideal S128x128 .f32) :
    FVec Ideal S100000x128 .f32 :=
  addf (addf (Host.dotGeneral dot_S100000x128_S128x128_S100000x128_1_0_0_1_n_n none
      (Host.divf agg (broadcastInDim S100000x128 ![0, 1] bcast_S100000x1_S100000x128_0_1 (broadcastInDim S100000x1 ![0] bcast_S100000_S100000x1_0 c)))
      (transpose S128x128 [1, 0] w1 transposes_S128x128_S128x128_1_0))
    (broadcastInDim S100000x128 ![0, 1] bcast_S1x128_S100000x128_0_1 (broadcastInDim S1x128 ![1] bcast_S128_S1x128_1 b)))
    (Host.dotGeneral dot_S100000x128_S128x128_S100000x128_1_0_0_1_n_n none x (transpose S128x128 [1, 0] w2 transposes_S128x128_S128x128_1_0))

/-- The clamped degree, broadcast to a column and then along rows, reads at (r, k) the degree of row r. -/
theorem bcast_col_apply (c : FVec Ideal S100000 .f32) (r : Fin 100000) (k : Fin 128) :
    broadcastInDim S100000x128 ![0, 1] bcast_S100000x1_S100000x128_0_1 (broadcastInDim S100000x1 ![0] bcast_S100000_S100000x1_0 c) (ix2 r k) = c (ix1 r) := by
  rw [broadcastInDim_apply _ bcast_S100000x1_S100000x128_0_1 _ (ix2 r k) (ix2 r (0 : Fin 1)) (fun a => match a with
    | ⟨0, _⟩ => by show r.val = if (100000 : Nat) = 1 then 0 else r.val; rw [if_neg (by decide)]
    | ⟨1, _⟩ => by show 0 = if (1 : Nat) = 1 then 0 else k.val; rw [if_pos rfl])]
  exact broadcastInDim_apply _ bcast_S100000_S100000x1_0 c (ix2 r (0 : Fin 1)) (ix1 r) (fun a => match a with
    | ⟨0, _⟩ => by show r.val = if (100000 : Nat) = 1 then 0 else r.val; rw [if_neg (by decide)])

/-- The bias, broadcast to a row and then along columns, reads at (r, j) the bias at j. -/
theorem bcast_row_apply (b : FVec Ideal S128 .f32) (r : Fin 100000) (j : Fin 128) :
    broadcastInDim S100000x128 ![0, 1] bcast_S1x128_S100000x128_0_1 (broadcastInDim S1x128 ![1] bcast_S128_S1x128_1 b) (ix2 r j) = b (ix1 j) := by
  rw [broadcastInDim_apply _ bcast_S1x128_S100000x128_0_1 _ (ix2 r j) (ix2 (0 : Fin 1) j) (fun a => match a with
    | ⟨0, _⟩ => by show 0 = if (1 : Nat) = 1 then 0 else r.val; rw [if_pos rfl]
    | ⟨1, _⟩ => by show j.val = if (128 : Nat) = 1 then 0 else j.val; rw [if_neg (by decide)])]
  exact broadcastInDim_apply _ bcast_S128_S1x128_1 b (ix2 (0 : Fin 1) j) (ix1 j) (fun a => match a with
    | ⟨0, _⟩ => by show j.val = if (128 : Nat) = 1 then 0 else j.val; rw [if_neg (by decide)])

/-- A host matrix product at (r, j): the sum over k of left (r, k) times right (k, j). -/
theorem dot_apply (l : FVec Ideal S100000x128 .f32) (w : FVec Ideal S128x128 .f32) (r : Fin 100000) (j : Fin 128) :
    Host.dotGeneral dot_S100000x128_S128x128_S100000x128_1_0_0_1_n_n none l w (ix2 r j) = ∑ k : Fin 128, l (ix2 r k) * w (ix2 k j) := by
  simp only [Host.dotGeneral]
  rw [Ideal.dotGeneral_apply]
  exact Cert.LibPlainDot.sum_plain dot_S100000x128_S128x128_S100000x128_1_0_0_1_n_n rfl rfl lhs_main_v24_0 lhs_main_v24_1 rhs_main_v24_0 rhs_main_v24_1 l w r j

/-- One layer of the reference at row r, column j. -/
theorem refLayer_apply (agg : FVec Ideal S100000x128 .f32) (c : FVec Ideal S100000 .f32)
    (x : FVec Ideal S100000x128 .f32) (w1 : FVec Ideal S128x128 .f32)
    (b : FVec Ideal S128 .f32) (w2 : FVec Ideal S128x128 .f32) (r : Fin 100000) (j : Fin 128) :
    refLayer agg c x w1 b w2 (ix2 r j)
      = Cert.Sage.layerR (fun r k => agg (ix2 r k)) (fun r k => x (ix2 r k)) (fun r => c (ix1 r))
          (fun k j => w1 (ix2 j k)) (fun k j => w2 (ix2 j k)) (fun j => b (ix1 j)) r j := by
  unfold refLayer Cert.Sage.layerR
  rw [addf_apply, addf_apply, dot_apply, dot_apply, bcast_row_apply]
  refine congrArg₂ (· + ·) (congrArg₂ (· + ·) (Finset.sum_congr rfl fun k _ => ?_) rfl) (Finset.sum_congr rfl fun k _ => ?_)
  · rw [transpose_ix2_apply]
    show Ideal.div (agg (ix2 r k)) (broadcastInDim S100000x128 ![0, 1] bcast_S100000x1_S100000x128_0_1 (broadcastInDim S100000x1 ![0] bcast_S100000_S100000x1_0 c) (ix2 r k)) * _ = _
    rw [bcast_col_apply]
  · rw [transpose_ix2_apply]

/-- The zero the clamp compares with, at any index. -/
theorem relu_zero_apply (i : S100000x128.Idx) : val_main_call0_v0 (F := Ideal) i = Ideal.ofBits .f32 0x00000000#32 := by
  rw [val_main_call0_v0_apply, val_main_call0_cst_apply]
  rfl

/-- The first layer's result, clamped, at row r, column j. -/
theorem hidden_apply (x0 : FVec Ideal S100000x128 .f32) (x1 : IVec S2x1600000 32)
    (x2 : FVec Ideal S128x128 .f32) (x3 : FVec Ideal S128 .f32) (x4 : FVec Ideal S128x128 .f32)
    (r : Fin 100000) (j : Fin 128) :
    val_main_v31 (F := Ideal) x0 x1 x2 x3 x4 (ix2 r j)
      = max (Cert.Sage.layerR (fun r k => aggOf x0 x1 (ix2 r k)) (fun r k => x0 (ix2 r k)) (fun r => degOf x1 (ix1 r))
          (fun k j => x2 (ix2 j k)) (fun k j => x4 (ix2 j k)) (fun j => x3 (ix1 j)) r j) (Ideal.ofBits .f32 0x00000000#32) := by
  rw [val_main_v31_apply, relu_zero_apply]
  show max (refLayer (aggOf x0 x1) (degOf x1) x0 x2 x3 x4 (ix2 r j)) _ = _
  rw [refLayer_apply]

/-- The second layer's result at row r, column j, over the first layer's result `h`. -/
theorem result_apply (x0 : FVec Ideal S100000x128 .f32) (x1 : IVec S2x1600000 32)
    (x2 : FVec Ideal S128x128 .f32) (x3 : FVec Ideal S128 .f32) (x4 x5 : FVec Ideal S128x128 .f32)
    (x6 : FVec Ideal S128 .f32) (x7 : FVec Ideal S128x128 .f32) (r : Fin 100000) (j : Fin 128) :
    val_main_v58 (F := Ideal) x0 x1 x2 x3 x4 x5 x6 x7 (ix2 r j)
      = Cert.Sage.layerR (fun r k => aggOf (val_main_v31 (F := Ideal) x0 x1 x2 x3 x4) x1 (ix2 r k)) (fun r k => val_main_v31 (F := Ideal) x0 x1 x2 x3 x4 (ix2 r k))
          (fun r => degOf x1 (ix1 r)) (fun k j => x5 (ix2 j k)) (fun k j => x7 (ix2 j k)) (fun j => x6 (ix1 j)) r j := by
  show refLayer (aggOf (val_main_v31 (F := Ideal) x0 x1 x2 x3 x4) x1) (degOf x1) (val_main_v31 (F := Ideal) x0 x1 x2 x3 x4) x5 x6 x7 (ix2 r j) = _
  rw [refLayer_apply]

/-- The clamped degree is at least the unit it is clamped at. -/
theorem one_le_degOf (e : IVec S2x1600000 32) (r : Fin 100000) :
    Ideal.ofBits .f32 0x3F800000#32 ≤ degOf e (ix1 r) := by
  unfold degOf
  rw [val_main_v19_apply, val_main_v18_apply, val_main_cst_3_apply]
  exact le_max_right _ _

end Cert.ReferenceIdeal.SageRef

end
-- ==== Proof.Host.lean ====
/-
  What the kernel program's host operations hand to each combine step, as terms of the launched arguments.

  Before the first step: the neighbour sums of the node features (gathered and scattered in a narrower float format,
  which changes nothing on extended reals), the features themselves, the column of reciprocals  1 / max(degree, 1),
  the two weight matrices transposed and the bias as a row.  Between the steps the same is computed from the first
  step's output array in place of the node features; the reciprocal column is not recomputed.  The neighbour sums and the
  clamped degree are the same host operations the reference applies, so they are named by the reference's terms.
-/
import proofs.«126381_j34411277976464_2_alg».proof.Proof.Gen.KernelIdeal.Frame
import proofs.«126381_j34411277976464_2_alg».proof.Proof.RefLayer
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.SageHost

open Cert.KernelIdeal Cert.KernelIdeal.Gen Idealize.ShloMosaic Idealize.ShloMosaic.TcCoe Idealize.SL.Sem Idealize.ShloMosaic.StableHlo Idealize.ShloMosaic.ValueIdx
open Cert.ReferenceIdeal.SageRef (aggOf degOf)

variable (m : (ℓ : Loc nD τ sig) → Buf (Elt Ideal) ℓ) (ρ : Dev nD → PrngReg)

/-- The column of reciprocals of the clamped degrees, as the host computes it: the unit divided by each clamped degree,
    laid out as a column. -/
def invCol (e : IVec S2x1600000 32) : S100000x1.Idx → EReal :=
  shapeCast S100000x1 (Host.divf (broadcastInDim S100000 ![] bcast_S_S100000 (constant (F := Ideal) S_ .f32 0x3F800000#32)) (degOf e)) shapeCasts_S100000_S100000x1

/-- An [a] array laid out as a column [a, 1] reads, at (i, u), the operand at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- On extended reals a widening of the float format is the identity. -/
theorem extf_id {s : Shape} {φ ψ : FTy} (a : FVec Ideal s φ) (h : φ.bits < ψ.bits) : (extf ψ a h : s.Idx → EReal) = a := rfl
/-- On extended reals a narrowing of the float format is the identity. -/
theorem truncf_id {s : Shape} {φ ψ : FTy} (a : FVec Ideal s φ) (h : ψ.bits < φ.bits) : (truncf ψ a h : s.Idx → EReal) = a := rfl

/-- The reciprocal column at row r is the unit divided by the clamped degree of row r. -/
theorem invCol_apply (e : IVec S2x1600000 32) (r : Fin 100000) :
    invCol e (ix2 r (0 : Fin 1)) = Ideal.div (Ideal.ofBits .f32 0x3F800000#32) (degOf e (ix1 r)) := by
  unfold invCol
  rw [shapeCast_a_a1_apply]
  have hd : ∀ (a b : FVec Ideal S100000 .f32) (i : S100000.Idx), Host.divf a b i = Ideal.div (a i) (b i) := fun _ _ _ => rfl
  rw [hd, broadcastInDim_apply _ bcast_S_S100000 _ (ix1 r) ix0 (fun a => a.elim0)]
  rfl

/-! ## At the first step's entry -/

set_option maxHeartbeats 4000000 in
theorem V1_agg (c : Dev nD) : (V1 m ρ c main_v24 : S100000x128.Idx → EReal)
    = aggOf (m ((c : Thread nD τ).loc main_arg0)) (m ((c : Thread nD τ).loc main_arg1)) := by
  show StableHlo.after hostOps0 (W0 m ρ c) (Proc.devRef .tc main_v24) = _
  after_results_simp
  rw [extf_id, truncf_id]
  rfl

set_option maxHeartbeats 4000000 in
theorem V1_x (c : Dev nD) : (V1 m ρ c main_arg0 : S100000x128.Idx → EReal) = m ((c : Thread nD τ).loc main_arg0) := by
  show StableHlo.after hostOps0 (W0 m ρ c) (Proc.devRef .tc main_arg0) = _
  after_results_simp
  all_goals rfl

set_option maxHeartbeats 4000000 in
theorem V1_inv (c : Dev nD) : (V1 m ρ c main_v12 : S100000x1.Idx → EReal) = invCol (m ((c : Thread nD τ).loc main_arg1)) := by
  show StableHlo.after hostOps0 (W0 m ρ c) (Proc.devRef .tc main_v12) = _
  after_results_simp
  all_goals rfl

set_option maxHeartbeats 4000000 in
theorem V1_wl (c : Dev nD) : (V1 m ρ c main_v26 : S128x128.Idx → EReal)
    = transpose S128x128 [1, 0] (m ((c : Thread nD τ).loc main_arg2)) transposes_S128x128_S128x128_1_0 := by
  show StableHlo.after hostOps0 (W0 m ρ c) (Proc.devRef .tc main_v26) = _
  after_results_simp
  all_goals rfl

set_option maxHeartbeats 4000000 in
theorem V1_wr (c : Dev nD) : (V1 m ρ c main_v27 : S128x128.Idx → EReal)
    = transpose S128x128 [1, 0] (m ((c : Thread nD τ).loc main_arg4)) transposes_S128x128_S128x128_1_0 := by
  show StableHlo.after hostOps0 (W0 m ρ c) (Proc.devRef .tc main_v27) = _
  after_results_simp
  all_goals rfl

set_option maxHeartbeats 4000000 in
theorem V1_b (c : Dev nD) : (V1 m ρ c main_v25 : S1x128.Idx → EReal)
    = shapeCast S1x128 (m ((c : Thread nD τ).loc main_arg3)) shapeCasts_S128_S1x128 := by
  show StableHlo.after hostOps0 (W0 m ρ c) (Proc.devRef .tc main_v25) = _
  after_results_simp
  all_goals rfl

/-! ## At the second step's entry -/

set_option maxHeartbeats 4000000 in
/-- What the first stretch computed or left alone is still there after the first step: the step changes only its
    output array. -/
theorem W2_v1 (c : Dev nD) : W2 m ρ c (Proc.devRef .tc main_v1) = Cert.ReferenceIdeal.Read.val_main_v1 (F := Ideal) (m ((c : Thread nD τ).loc main_arg1)) :=
  (W2_of_ne m ρ c main_v1 (by decide)).trans (by
    show StableHlo.after hostOps0 (W0 m ρ c) (Proc.devRef .tc main_v1) = _
    after_results_simp
    all_goals rfl)
set_option maxHeartbeats 4000000 in
theorem W2_v3 (c : Dev nD) : W2 m ρ c (Proc.devRef .tc main_v3) = Cert.ReferenceIdeal.Read.val_main_v3 (F := Ideal) (m ((c : Thread nD τ).loc main_arg1)) :=
  (W2_of_ne m ρ c main_v3 (by decide)).trans (by
    show StableHlo.after hostOps0 (W0 m ρ c) (Proc.devRef .tc main_v3) = _
    after_results_simp
    all_goals rfl)
set_option maxHeartbeats 4000000 in
theorem W2_arg5 (c : Dev nD) : W2 m ρ c (Proc.devRef .tc main_arg5) = (m ((c : Thread nD τ).loc main_arg5)) :=
  (W2_of_ne m ρ c main_arg5 (by decide)).trans (by
    show StableHlo.after hostOps0 (W0 m ρ c) (Proc.devRef .tc main_arg5) = _
    after_results_simp
    all_goals rfl)
set_option maxHeartbeats 4000000 in
theorem W2_arg6 (c : Dev nD) : W2 m ρ c (Proc.devRef .tc main_arg6) = (m ((c : Thread nD τ).loc main_arg6)) :=
  (W2_of_ne m ρ c main_arg6 (by decide)).trans (by
    show StableHlo.after hostOps0 (W0 m ρ c) (Proc.devRef .tc main_arg6) = _
    after_results_simp
    all_goals rfl)
set_option maxHeartbeats 4000000 in
theorem W2_arg7 (c : Dev nD) : W2 m ρ c (Proc.devRef .tc main_arg7) = (m ((c : Thread nD τ).loc main_arg7)) :=
  (W2_of_ne m ρ c main_arg7 (by decide)).trans (by
    show StableHlo.after hostOps0 (W0 m ρ c) (Proc.devRef .tc main_arg7) = _
    after_results_simp
    all_goals rfl)
/-- The reciprocal column is an input of the first step: the step leaves it as it found it. -/
theorem W2_v12 (c : Dev nD) : W2 m ρ c (Proc.devRef .tc main_v12) = W1 m ρ c (Proc.devRef .tc main_v12) :=
  (W2_arr m ρ c 2).trans (((dat0 (V1 m ρ) c).arrAt_in 2 rfl _).trans (A_eq0 (V1 m ρ) c 2))

set_option maxHeartbeats 4000000 in
theorem V3_agg (c : Dev nD) : (V3 m ρ c main_v40 : S100000x128.Idx → EReal)
    = aggOf ((dat0 (V1 m ρ) c).arrAt 6 cfg0.N) (m ((c : Thread nD τ).loc main_arg1)) := by
  show StableHlo.after hostOps1 (W2 m ρ c) (Proc.devRef .tc main_v40) = _
  after_results_simp
  rw [W2_v1, W2_v3, show W2 m ρ c (Proc.devRef .tc main_v28) = (dat0 (V1 m ρ) c).arrAt 6 cfg0.N from W2_arr m ρ c 6]
  rw [extf_id, truncf_id]
  rfl

set_option maxHeartbeats 4000000 in
theorem V3_h (c : Dev nD) : (V3 m ρ c main_v28 : S100000x128.Idx → EReal) = (dat0 (V1 m ρ) c).arrAt 6 cfg0.N := by
  show StableHlo.after hostOps1 (W2 m ρ c) (Proc.devRef .tc main_v28) = _
  after_results_simp
  exact W2_arr m ρ c 6

set_option maxHeartbeats 4000000 in
theorem V3_inv (c : Dev nD) : (V3 m ρ c main_v12 : S100000x1.Idx → EReal) = invCol (m ((c : Thread nD τ).loc main_arg1)) := by
  show StableHlo.after hostOps1 (W2 m ρ c) (Proc.devRef .tc main_v12) = _
  after_results_simp
  exact (W2_v12 m ρ c).trans (V1_inv m ρ c)

set_option maxHeartbeats 4000000 in
theorem V3_wl (c : Dev nD) : (V3 m ρ c main_v42 : S128x128.Idx → EReal)
    = transpose S128x128 [1, 0] (m ((c : Thread nD τ).loc main_arg5)) transposes_S128x128_S128x128_1_0 := by
  show StableHlo.after hostOps1 (W2 m ρ c) (Proc.devRef .tc main_v42) = _
  after_results_simp
  rw [W2_arg5]

set_option maxHeartbeats 4000000 in
theorem V3_wr (c : Dev nD) : (V3 m ρ c main_v43 : S128x128.Idx → EReal)
    = transpose S128x128 [1, 0] (m ((c : Thread nD τ).loc main_arg7)) transposes_S128x128_S128x128_1_0 := by
  show StableHlo.after hostOps1 (W2 m ρ c) (Proc.devRef .tc main_v43) = _
  after_results_simp
  rw [W2_arg7]

set_option maxHeartbeats 4000000 in
theorem V3_b (c : Dev nD) : (V3 m ρ c main_v41 : S1x128.Idx → EReal)
    = shapeCast S1x128 (m ((c : Thread nD τ).loc main_arg6)) shapeCasts_S128_S1x128 := by
  show StableHlo.after hostOps1 (W2 m ρ c) (Proc.devRef .tc main_v41) = _
  after_results_simp
  rw [W2_arg6]
  all_goals rfl

end Cert.KernelIdeal.SageHost

end
-- ==== Proof.Bridge.lean ====
/-
  The kernel's two combine steps against the reference's two layers.

  Each step's output array is the layer with the neighbour sums scaled by the reciprocal column 1 / c, the bias added
  last; the reference divides by c and adds the bias between the two products.  Since c = max(degree, 1) is at least one,
  the two arrangements are one function (the layer law), so the first step's output is the reference's clamped first
  layer; the second step then reads that array, its neighbour sums along the same edges and the same reciprocal column,
  and the law applies again.
-/
import proofs.«126381_j34411277976464_2_alg».proof.Proof.Gen.KernelIdeal.Frame
import proofs.«126381_j34411277976464_2_alg».proof.Proof.Region
import proofs.«126381_j34411277976464_2_alg».proof.Proof.Host
import proofs.«126381_j34411277976464_2_alg».proof.Proof.RefLayer
import proofs.«126381_j34411277976464_2_alg».proof.Proof.Spec
import Idealize.ShloMosaic.Lib.ValueIdx
import Idealize.ShloMosaic.Lib.ValueLayout

set_option maxRecDepth 16384

noncomputable section

namespace Cert.KernelIdeal.SageBridge

open Cert.KernelIdeal Cert.KernelIdeal.Gen Idealize.ShloMosaic Idealize.ShloMosaic.TcCoe Idealize.SL.Sem Idealize.ShloMosaic.ValueIdx
open Cert.ReferenceIdeal.SageRef (aggOf degOf)
open Cert.ReferenceIdeal.Read (val_main_v31 val_main_v58)

variable (m : (ℓ : Loc nD τ sig) → Buf (Elt Ideal) ℓ) (ρ : Dev nD → PrngReg)

/-- The first step's output array is the reference's first layer, clamped at zero. -/
theorem hidden_eq (c : Dev nD) : (dat0 (F := Ideal) (V1 m ρ) c).arrAt 6 cfg0.N
    = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [SageRegion.final0]
  funext i
  obtain ⟨r, j, rfl⟩ : ∃ (r : Fin 100000) (j : Fin 128), i = ix2 r j := ⟨i 0, i 1, eq_ix2 i⟩
  rw [Cert.ReferenceIdeal.SageRef.hidden_apply]
  unfold SageRegion.out0
  rw [SageHost.V1_agg, SageHost.V1_x, SageHost.V1_inv, SageHost.V1_wl, SageHost.V1_wr, SageHost.V1_b]
  refine congrArg (fun z => max z (Ideal.ofBits .f32 0x00000000#32)) ?_
  show Cert.Sage.layerK _ _ _ _ _ _ r j = _
  simp only [SageHost.invCol_apply, shapeCast_a_1a_apply]
  have hwl : (fun (k j : Fin 128) => transpose S128x128 [1, 0] (m ((c : Thread nD τ).loc main_arg2)) transposes_S128x128_S128x128_1_0 (ix2 k j)) = fun k j => (m ((c : Thread nD τ).loc main_arg2)) (ix2 j k) :=
    funext fun k => funext fun j => transpose_ix2_apply _ _ k j
  have hwr : (fun (k j : Fin 128) => transpose S128x128 [1, 0] (m ((c : Thread nD τ).loc main_arg4)) transposes_S128x128_S128x128_1_0 (ix2 k j)) = fun k j => (m ((c : Thread nD τ).loc main_arg4)) (ix2 j k) :=
    funext fun k => funext fun j => transpose_ix2_apply _ _ k j
  rw [hwl, hwr]
  exact Cert.Sage.layer_eq _ _ (fun r => degOf (m ((c : Thread nD τ).loc main_arg1)) (ix1 r)) _ _ _ Cert.Sage.ofBits_one
    (fun r => Cert.ReferenceIdeal.SageRef.one_le_degOf _ r) r j

/-- The result buffer's last contents are the reference's second layer over its first. -/
theorem result_eq (c : Dev nD) : W4 m ρ c (Proc.devRef .tc main_v44)
    = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [show W4 m ρ c (Proc.devRef .tc main_v44) = (dat1 (F := Ideal) (V3 m ρ) c).arrAt 6 cfg1.N from W4_arr m ρ c 6, SageRegion.final1]
  funext i
  obtain ⟨r, j, rfl⟩ : ∃ (r : Fin 100000) (j : Fin 128), i = ix2 r j := ⟨i 0, i 1, eq_ix2 i⟩
  rw [Cert.ReferenceIdeal.SageRef.result_apply]
  unfold SageRegion.out1
  rw [SageHost.V3_agg, SageHost.V3_h, SageHost.V3_inv, SageHost.V3_wl, SageHost.V3_wr, SageHost.V3_b, hidden_eq]
  show Cert.Sage.layerK _ _ _ _ _ _ r j = _
  simp only [SageHost.invCol_apply, shapeCast_a_1a_apply]
  have hwl : (fun (k j : Fin 128) => transpose S128x128 [1, 0] (m ((c : Thread nD τ).loc main_arg5)) transposes_S128x128_S128x128_1_0 (ix2 k j)) = fun k j => (m ((c : Thread nD τ).loc main_arg5)) (ix2 j k) :=
    funext fun k => funext fun j => transpose_ix2_apply _ _ k j
  have hwr : (fun (k j : Fin 128) => transpose S128x128 [1, 0] (m ((c : Thread nD τ).loc main_arg7)) transposes_S128x128_S128x128_1_0 (ix2 k j)) = fun k j => (m ((c : Thread nD τ).loc main_arg7)) (ix2 j k) :=
    funext fun k => funext fun j => transpose_ix2_apply _ _ k j
  rw [hwl, hwr]
  exact Cert.Sage.layer_eq _ _ (fun r => degOf (m ((c : Thread nD τ).loc main_arg1)) (ix1 r)) _ _ _ Cert.Sage.ofBits_one
    (fun r => Cert.ReferenceIdeal.SageRef.one_le_degOf _ r) r j

end Cert.KernelIdeal.SageBridge

end
-- ==== Proof.lean ====
/-
  Two layers of mean-aggregating graph convolution: for each node, the mean of its in-neighbours' features (the sum over
  incoming edges divided by the in-degree, the degree clamped below at one) times one weight matrix, plus a bias, plus
  the node's own features times a second weight matrix; a clamp at zero between the layers.

  The kernel program computes the neighbour sums and the degrees with the same gather and scatter-add host operations
  as the reference, then runs each layer's dense part as a pipelined step over 25 row blocks that multiplies the
  neighbour sums by a precomputed column of reciprocals 1 / max(degree, 1) and adds the bias last, where the reference
  divides by max(degree, 1) and adds the bias between the two products.  On extended reals a change of float format is
  the identity, and  a * (1 / c) = a / c  whenever c is at least one (c is then not zero, and both sides are a * c⁻¹);
  reordering the three summands needs only commutativity and associativity of addition.  So the two programs end with
  equal results on all inputs; the finiteness of the inputs is not used.

  The frames are the generated ones (the reference's is its generated run with the result dropped).
-/
import proofs.«126381_j34411277976464_2_alg».proof.Defs
import proofs.«126381_j34411277976464_2_alg».proof.Proof.Gen.Kernel
import proofs.«126381_j34411277976464_2_alg».proof.Proof.Gen.Kernel.Skeleton
import proofs.«126381_j34411277976464_2_alg».proof.Proof.Gen.Kernel.Launch
import proofs.«126381_j34411277976464_2_alg».proof.Proof.Gen.Kernel.Points
import proofs.«126381_j34411277976464_2_alg».proof.Proof.Gen.Kernel.Frame
import proofs.«126381_j34411277976464_2_alg».proof.Proof.Gen.KernelIdeal
import proofs.«126381_j34411277976464_2_alg».proof.Proof.Gen.KernelIdeal.Skeleton
import proofs.«126381_j34411277976464_2_alg».proof.Proof.Gen.KernelIdeal.Launch
import proofs.«126381_j34411277976464_2_alg».proof.Proof.Gen.KernelIdeal.Points
import proofs.«126381_j34411277976464_2_alg».proof.Proof.Gen.KernelIdeal.Frame
import proofs.«126381_j34411277976464_2_alg».proof.Proof.Gen.ReferenceIdeal
import proofs.«126381_j34411277976464_2_alg».proof.Proof.Gen.ReferenceIdeal.Run
import proofs.«126381_j34411277976464_2_alg».proof.Proof.Gen.ReferenceIdeal.Read
import proofs.«126381_j34411277976464_2_alg».proof.Proof.Gen.Pre_finite_inputs
import proofs.«126381_j34411277976464_2_alg».proof.Proof.KRun
import proofs.«126381_j34411277976464_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

namespace SageClaims

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the reference's second layer over its clamped first layer, as one function of the
    arguments: the kernel program by the layer law applied to each combine step, the reference by its generated run. -/
theorem algebraic : Cert.algebraic_KernelIdeal_ReferenceIdeal := by
  intro m ρ m' ρ' _ hagree
  refine ⟨fun c => Cert.ReferenceIdeal.Read.val_main_v58 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.SageBridge.result_eq m ρ c), (h c).2⟩)
      (Cert.KernelIdeal.SageRun.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v58_eq, e0, e1, e2, e3, e4, e5, e6, e7]

end SageClaims

theorem claim : Cert.Claim := ⟨Cert.Kernel.Gen.facts, Cert.KernelIdeal.Gen.facts, Cert.ReferenceIdeal.Gen.facts, Cert.Pre_finite_inputs.Gen.facts,
  SageClaims.frame_k, SageClaims.frame_ki, SageClaims.frame_ri, trivial, SageClaims.algebraic⟩

end Cert.Proof

end
